-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S1600000 .f32) (main_arg4 : IVec S1600000 32) (main_arg5 : IVec S1600000 32) (main_arg6 : FVec F S1600000 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg6
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 46
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S1x128, .f32⟩
  | .hbm, ⟨45, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v12) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.MlpSpec.lean ====
/-
  The function both programs compute, one entry at a time, on the extended reals.

  Two row-sparse aggregates `a0`, `a1` of the node features (each an `R × 128` array) are added, sent
  through an affine layer `· W1 + b1`, clipped below at zero, and sent through a second affine layer
  `· W2 + b2`. Entry `(p, c)` of the result reads row `p` of the aggregates only:

      hidden p q = max (Σ_k (a0[p,k] + a1[p,k]) · W1[k,q] + b1[q]) 0
      mlp p c    = Σ_q hidden p q · W2[q,c] + b2[c]

  The row count `R` is left open so that the same definition describes a block of rows and the whole
  array; `mlp_ext` says that an entry only depends on the one row of each aggregate it reads.
-/
import Idealize.ShloMosaic.PureOps.Ideal
import Idealize.ShloMosaic.Lib.ValueIdx

noncomputable section

open scoped BigOperators

namespace Cert.Mlp

open Idealize.ShloMosaic Idealize.ShloMosaic.ValueIdx

/-- The clipping threshold: the single-precision word of `0.0`, left unevaluated (both programs clip
    against the same word). -/
def zero : EReal := Ideal.ofBits .f32 0x00000000#32

/-- Entry `(p, q)` of the hidden layer: the first affine layer of the summed aggregates, clipped at zero. -/
def hidden {R : Nat} (a0 a1 : (⟨2, ![R, 128]⟩ : Shape).Idx → EReal) (w1 : (⟨2, ![128, 128]⟩ : Shape).Idx → EReal)
    (b1 : Fin 128 → EReal) (p : Fin R) (q : Fin 128) : EReal :=
  max ((∑ k : Fin 128, (a0 (ix2 p k) + a1 (ix2 p k)) * w1 (ix2 k q)) + b1 q) zero

/-- Entry `(p, c)` of the result: the second affine layer of the hidden layer. -/
def mlp {R : Nat} (a0 a1 : (⟨2, ![R, 128]⟩ : Shape).Idx → EReal) (w1 : (⟨2, ![128, 128]⟩ : Shape).Idx → EReal)
    (b1 : Fin 128 → EReal) (w2 : (⟨2, ![128, 128]⟩ : Shape).Idx → EReal) (b2 : Fin 128 → EReal)
    (p : Fin R) (c : Fin 128) : EReal :=
  (∑ q : Fin 128, hidden a0 a1 w1 b1 p q * w2 (ix2 q c)) + b2 c

/-- An entry of the result reads one row of each aggregate, the weights and the biases: two settings of
    all six (the aggregates of possibly different heights) that agree on row `p` resp. `p'` of the
    aggregates and everywhere on the parameters give the same entries there. -/
theorem mlp_ext {R R' : Nat} (a0 a1 : (⟨2, ![R, 128]⟩ : Shape).Idx → EReal)
    (a0' a1' : (⟨2, ![R', 128]⟩ : Shape).Idx → EReal) (w1 w1' : (⟨2, ![128, 128]⟩ : Shape).Idx → EReal)
    (b1 b1' : Fin 128 → EReal) (w2 w2' : (⟨2, ![128, 128]⟩ : Shape).Idx → EReal) (b2 b2' : Fin 128 → EReal)
    (p : Fin R) (p' : Fin R') (h0 : ∀ k : Fin 128, a0 (ix2 p k) = a0' (ix2 p' k))
    (h1 : ∀ k : Fin 128, a1 (ix2 p k) = a1' (ix2 p' k))
    (hw1 : ∀ k q : Fin 128, w1 (ix2 k q) = w1' (ix2 k q)) (hb1 : ∀ q : Fin 128, b1 q = b1' q)
    (hw2 : ∀ k q : Fin 128, w2 (ix2 k q) = w2' (ix2 k q)) (hb2 : ∀ q : Fin 128, b2 q = b2' q) (c : Fin 128) :
    mlp a0 a1 w1 b1 w2 b2 p c = mlp a0' a1' w1' b1' w2' b2' p' c := by
  unfold mlp hidden
  simp only [h0, h1, hw1, hb1, hw2, hb2]

end Cert.Mlp

end
-- ==== Proof.KernelBody.lean ====
/-
  The kernel body's arithmetic, read at one entry.

  At a grid point the body loads a block of 10000 rows of each aggregate (`v0`, `v2`), the two weight
  matrices (`v5`, `v13`) and the two bias rows (`v7`, `v15`, each a `1 × 128` array), and stores

      (max ((v0 + v2) · v5 + v7↓, 0)) · v13 + v15↓

  where `·` is a matrix product into a zero accumulator and `↓` repeats a row down the 10000 rows. On the
  extended reals each product entry is the plain sum over the contracted coordinate, so entry `(p, c)` of
  what is stored is `Mlp.mlp` of the loaded blocks at `(p, c)`.
-/
import proofs.«181344_j16355235463409_1_alg».proof.Proof.Gen.KernelIdeal.Skeleton
import proofs.«181344_j16355235463409_1_alg».proof.Proof.LibPlainDot
import proofs.«181344_j16355235463409_1_alg».proof.Proof.MlpSpec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The body's two products contract the left operand's columns against the right operand's rows. -/
theorem plain : Cert.PlainDot.IsPlain dot_S10000x128_S128x128_S10000x128_1_0_0_1_n_n :=
  ⟨rfl, rfl, rfl, rfl, rfl, rfl⟩

/-- A `1 × 128` row repeated down 10000 rows holds the row's entry `c` at every `(p, c)`. -/
theorem row_down (b : FVec Ideal S1x128 .f32) (p : Fin 10000) (c : Fin 128) :
    broadcastTo S10000x128 (shapeCast S1x128 b shapeCasts_S1x128_S1x128) broadcasts_S1x128_S10000x128 (ix2 p c)
      = b (ix2 (0 : Fin 1) c) :=
  (broadcastTo_apply _ broadcasts_S1x128_S10000x128 (ix2 p c) (ix2 (0 : Fin 1) c) (fun a => by
    match a with
    | ⟨0, _⟩ => show (0 : ℕ) = if (1 : ℕ) = 1 then 0 else _; rw [if_pos rfl]
    | ⟨1, _⟩ => show c.val = if (128 : ℕ) = 1 then 0 else c.val; rw [if_neg (by decide)])).trans
    (congrFun (shapeCast_self b shapeCasts_S1x128_S1x128) _)

/-- One affine layer of the body at entry `(p, c)`: the product into a zero accumulator plus the repeated
    bias row is the sum over the contracted coordinate plus the bias entry. -/
theorem affine_apply (x : FVec Ideal S10000x128 .f32) (w : FVec Ideal S128x128 .f32) (b : FVec Ideal S1x128 .f32)
    (p : Fin 10000) (c : Fin 128) :
    addf (matmul dot_S10000x128_S128x128_S10000x128_1_0_0_1_n_n none x w (constant S10000x128 .f32 0x00000000#32))
        (broadcastTo S10000x128 (shapeCast S1x128 b shapeCasts_S1x128_S1x128) broadcasts_S1x128_S10000x128) (ix2 p c)
      = (∑ k : Fin 128, x (ix2 p k) * w (ix2 k c)) + b (ix2 (0 : Fin 1) c) :=
  congrArg₂ (· + ·) (Cert.PlainDot.matmul_zero_apply plain none x w p c) (row_down b p c)

/-- What the body stores, at entry `(p, c)`, is the two-layer function of the loaded blocks. -/
theorem pay_apply (v0 v2 : Vec Ideal S10000x128 .f32) (v5 : Vec Ideal S128x128 .f32) (v7 : Vec Ideal S1x128 .f32)
    (v13 : Vec Ideal S128x128 .f32) (v15 : Vec Ideal S1x128 .f32) (p : Fin 10000) (c : Fin 128) :
    k0_pay1 v0 v2 v5 v7 v13 v15 (ix2 p c)
      = Cert.Mlp.mlp v0 v2 v5 (fun q => v7 (ix2 (0 : Fin 1) q)) v13 (fun q => v15 (ix2 (0 : Fin 1) q)) p c := by
  unfold k0_pay1
  refine (affine_apply _ v13 v15 p c).trans ?_
  unfold Cert.Mlp.mlp
  refine congrArg (· + v15 (ix2 (0 : Fin 1) c)) (Finset.sum_congr rfl fun q _ => congrArg (· * v13 (ix2 q c)) ?_)
  unfold Cert.Mlp.hidden
  refine congrArg (max · Cert.Mlp.zero) ((affine_apply _ v5 v7 p q).trans ?_)
  refine congrArg (· + v7 (ix2 (0 : Fin 1) q)) (Finset.sum_congr rfl fun k _ => congrArg (· * v5 (ix2 k q)) ?_)
  show shapeCast S10000x128 v0 shapeCasts_S10000x128_S10000x128 (ix2 p k)
      + shapeCast S10000x128 v2 shapeCasts_S10000x128_S10000x128 (ix2 p k) = v0 (ix2 p k) + v2 (ix2 p k)
  rw [shapeCast_self, shapeCast_self]

end Cert.KernelIdeal.Body

end
-- ==== Proof.KernelValue.lean ====
/-
  From the blocks the kernel writes to the whole output array.

  The grid has ten points; point `t` reads rows `10000 t … 10000 t + 9999` of the two aggregates (the
  arrays the host part of the program leaves in `main_v12` and `main_v25`), the whole of both weight
  matrices and of both bias rows, and writes rows `10000 t … 10000 t + 9999` of the output. An entry of
  the two-layer function reads one row of each aggregate, so what point `t` writes is block `t` of ONE
  function `arrays` of the whole arrays; the ten blocks tile the output, so after the run the output array
  is that function.

  How a window's block sits in its array is a fact about index arithmetic only: each such fact is stated
  for an ARBITRARY array in the window's place (`read_…`), and only then applied to the arrays the host
  part leaves, so that those are never opened.
-/
import proofs.«181344_j16355235463409_1_alg».proof.Proof.Gen.KernelIdeal.Value
import proofs.«181344_j16355235463409_1_alg».proof.Proof.KernelBody
import proofs.«181344_j16355235463409_1_alg».proof.Proof.MlpSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

/-! ## Blocks inside their arrays, for any reading of the floats -/

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- The block index of every window at every grid point: the aggregates and the output move down one
    block of rows per point, the weights and the biases stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the block of rows at point `t` of any array in the first aggregate's place is row
    `10000 t + p` of that array. -/
theorem read_rows0 (c : Dev nD) (X : Buf (Elt F) ((c : Thread nD τ).loc (Pipeline.arrRef spec0 0))) (t : Fin cfg0.N)
    (p : Fin 10000) (k : Fin 128) (P : Fin 100000) (hP : P.val = 10000 * t.val + p.val) :
    ((cfg0.win 0).blk t).view.read (Elt F) X (ix2 p k) = X (ix2 P k) := by
  obtain ⟨e0, e1, -⟩ := idx_facts t
  show X (((cfg0.win 0).blk t).view.emb (ix2 p k)) = X (ix2 P k)
  refine congrArg X (funext fun a => Fin.ext ?_)
  match a with
  | ⟨0, _⟩ => show win0_0.index t (0 : Fin 2) * 10000 + 1 * p.val = P.val; rw [e0, hP]; omega
  | ⟨1, _⟩ => show win0_0.index t (1 : Fin 2) * 128 + 1 * k.val = k.val; rw [e1]; omega

/-- The same for the second aggregate's window. -/
theorem read_rows1 (c : Dev nD) (X : Buf (Elt F) ((c : Thread nD τ).loc (Pipeline.arrRef spec0 1))) (t : Fin cfg0.N)
    (p : Fin 10000) (k : Fin 128) (P : Fin 100000) (hP : P.val = 10000 * t.val + p.val) :
    ((cfg0.win 1).blk t).view.read (Elt F) X (ix2 p k) = X (ix2 P k) := by
  obtain ⟨-, -, e0, e1, -⟩ := idx_facts t
  show X (((cfg0.win 1).blk t).view.emb (ix2 p k)) = X (ix2 P k)
  refine congrArg X (funext fun a => Fin.ext ?_)
  match a with
  | ⟨0, _⟩ => show win0_1.index t (0 : Fin 2) * 10000 + 1 * p.val = P.val; rw [e0, hP]; omega
  | ⟨1, _⟩ => show win0_1.index t (1 : Fin 2) * 128 + 1 * k.val = k.val; rw [e1]; omega

/-- The first weight matrix's one block is the matrix, at every point. -/
theorem read_whole2 (c : Dev nD) (X : Buf (Elt F) ((c : Thread nD τ).loc (Pipeline.arrRef spec0 2))) (t : Fin cfg0.N)
    (k q : Fin 128) : ((cfg0.win 2).blk t).view.read (Elt F) X (ix2 k q) = X (ix2 k q) := by
  obtain ⟨-, -, -, -, e0, e1, -⟩ := idx_facts t
  show X (((cfg0.win 2).blk t).view.emb (ix2 k q)) = X (ix2 k q)
  refine congrArg X (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The first bias row's one block is the row, at every point. -/
theorem read_whole3 (c : Dev nD) (X : Buf (Elt F) ((c : Thread nD τ).loc (Pipeline.arrRef spec0 3))) (t : Fin cfg0.N)
    (u : Fin 1) (q : Fin 128) : ((cfg0.win 3).blk t).view.read (Elt F) X (ix2 u q) = X (ix2 u q) := by
  obtain ⟨-, -, -, -, -, -, e0, e1, -⟩ := idx_facts t
  show X (((cfg0.win 3).blk t).view.emb (ix2 u q)) = X (ix2 u q)
  refine congrArg X (funext fun a => Fin.ext ?_)
  match a with
  | ⟨0, _⟩ => show win0_3.index t (0 : Fin 2) * 1 + 1 * u.val = u.val; rw [e0]; omega
  | ⟨1, _⟩ => show win0_3.index t (1 : Fin 2) * 128 + 1 * q.val = q.val; rw [e1]; omega

/-- The second weight matrix's one block is the matrix, at every point. -/
theorem read_whole4 (c : Dev nD) (X : Buf (Elt F) ((c : Thread nD τ).loc (Pipeline.arrRef spec0 4))) (t : Fin cfg0.N)
    (k q : Fin 128) : ((cfg0.win 4).blk t).view.read (Elt F) X (ix2 k q) = X (ix2 k q) := by
  obtain ⟨-, -, -, -, -, -, -, -, e0, e1, -⟩ := idx_facts t
  show X (((cfg0.win 4).blk t).view.emb (ix2 k q)) = X (ix2 k q)
  refine congrArg X (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The second bias row's one block is the row, at every point. -/
theorem read_whole5 (c : Dev nD) (X : Buf (Elt F) ((c : Thread nD τ).loc (Pipeline.arrRef spec0 5))) (t : Fin cfg0.N)
    (u : Fin 1) (q : Fin 128) : ((cfg0.win 5).blk t).view.read (Elt F) X (ix2 u q) = X (ix2 u q) := by
  obtain ⟨-, -, -, -, -, -, -, -, -, -, e0, e1, -⟩ := idx_facts t
  show X (((cfg0.win 5).blk t).view.emb (ix2 u q)) = X (ix2 u q)
  refine congrArg X (funext fun a => Fin.ext ?_)
  match a with
  | ⟨0, _⟩ => show win0_5.index t (0 : Fin 2) * 1 + 1 * u.val = u.val; rw [e0]; omega
  | ⟨1, _⟩ => show win0_5.index t (1 : Fin 2) * 128 + 1 * q.val = q.val; rw [e1]; omega

/-- Position `(p, q)` of the output's block at point `t`, read off any array in the output's place, is
    position `(10000 t + p, q)` of that array. -/
theorem read_out (c : Dev nD) (X : Buf (Elt F) ((c : Thread nD τ).loc (Pipeline.arrRef spec0 6))) (t : Fin cfg0.N)
    (p : Fin 10000) (q : Fin 128) (P : Fin 100000) (hP : P.val = 10000 * t.val + p.val) :
    ((cfg0.win 6).blk t).view.read (Elt F) X (ix2 p q) = X (ix2 P q) := by
  obtain ⟨-, -, -, -, -, -, -, -, -, -, -, -, e0, e1⟩ := idx_facts t
  show X (((cfg0.win 6).blk t).view.emb (ix2 p q)) = X (ix2 P q)
  refine congrArg X (funext fun a => Fin.ext ?_)
  match a with
  | ⟨0, _⟩ => show win0_6.index t (0 : Fin 2) * 10000 + 1 * p.val = P.val; rw [e0, hP]; omega
  | ⟨1, _⟩ => show win0_6.index t (1 : Fin 2) * 128 + 1 * q.val = q.val; rw [e1]; omega

/-- A write-back of a whole (uncut) block moves every position of it. -/
theorem cut_apply {α : Type} (t : Fin cfg0.N) (Y : S10000x128.Idx → α) (p : Fin 10000) (q : Fin 128) :
    (cfg0.win 6).cut (grid0.coords t) Y (ix2 p q) = Y (ix2 p q) := rfl

/-- What point `t` writes back is what the body stores, of the six input blocks at `t`. -/
theorem flushed_pay (c : Dev nD) (t : Fin cfg0.N) :
    (dats m 0 c).flushed 6 t = (cfg0.win 6).cut (grid0.coords t)
      (k0_pay1 (iblk m c 0 t) (iblk m c 1 t) (iblk m c 2 t) (iblk m c 3 t) (iblk m c 4 t) (iblk m c 5 t)) := by
  rw [Cert.KernelIdeal.Value.flushed6]
  unfold out0_6
  rw [View.canon_unit_zero hz]
  simp only [View.ld_unit_zero (S := S10000x128) hz, View.ld_unit_zero (S := S128x128) hz,
    View.ld_unit_zero (S := S1x128) hz]

/-- Each input block, read at a position, is the array the region finds read at the matching position. -/
theorem rows0 (c : Dev nD) (t : Fin cfg0.N) (p : Fin 10000) (k : Fin 128) (P : Fin 100000)
    (hP : P.val = 10000 * t.val + p.val) : iblk m c 0 t (ix2 p k) = V m c main_v12 (ix2 P k) :=
  read_rows0 c (V m c (Pipeline.arrRef spec0 0)) t p k P hP

theorem rows1 (c : Dev nD) (t : Fin cfg0.N) (p : Fin 10000) (k : Fin 128) (P : Fin 100000)
    (hP : P.val = 10000 * t.val + p.val) : iblk m c 1 t (ix2 p k) = V m c main_v25 (ix2 P k) :=
  read_rows1 c (V m c (Pipeline.arrRef spec0 1)) t p k P hP

theorem whole2 (c : Dev nD) (t : Fin cfg0.N) (k q : Fin 128) : iblk m c 2 t (ix2 k q) = V m c main_arg7 (ix2 k q) :=
  read_whole2 c (V m c (Pipeline.arrRef spec0 2)) t k q

theorem whole3 (c : Dev nD) (t : Fin cfg0.N) (u : Fin 1) (q : Fin 128) :
    iblk m c 3 t (ix2 u q) = V m c main_v26 (ix2 u q) :=
  read_whole3 c (V m c (Pipeline.arrRef spec0 3)) t u q

theorem whole4 (c : Dev nD) (t : Fin cfg0.N) (k q : Fin 128) : iblk m c 4 t (ix2 k q) = V m c main_arg9 (ix2 k q) :=
  read_whole4 c (V m c (Pipeline.arrRef spec0 4)) t k q

theorem whole5 (c : Dev nD) (t : Fin cfg0.N) (u : Fin 1) (q : Fin 128) :
    iblk m c 5 t (ix2 u q) = V m c main_v27 (ix2 u q) :=
  read_whole5 c (V m c (Pipeline.arrRef spec0 5)) t u q

end AnyFloat

/-! ## The output array on the extended reals -/

/-- The two-layer function of whole arrays: the aggregates `A0`, `A1`, the weights `W1`, `W2` and the
    biases as `1 × 128` rows `B1`, `B2`. -/
def G (A0 A1 : S100000x128.Idx → EReal) (W1 : S128x128.Idx → EReal) (B1 : S1x128.Idx → EReal)
    (W2 : S128x128.Idx → EReal) (B2 : S1x128.Idx → EReal) : S100000x128.Idx → EReal :=
  fun i => Cert.Mlp.mlp A0 A1 W1 (fun q => B1 (ix2 (0 : Fin 1) q)) W2 (fun q => B2 (ix2 (0 : Fin 1) q)) (i 0) (i 1)

theorem G_apply (A0 A1 : S100000x128.Idx → EReal) (W1 : S128x128.Idx → EReal) (B1 : S1x128.Idx → EReal)
    (W2 : S128x128.Idx → EReal) (B2 : S1x128.Idx → EReal) (P : Fin 100000) (q : Fin 128) :
    G A0 A1 W1 B1 W2 B2 (ix2 P q)
      = Cert.Mlp.mlp A0 A1 W1 (fun q => B1 (ix2 (0 : Fin 1) q)) W2 (fun q => B2 (ix2 (0 : Fin 1) q)) P q := rfl

variable (m : (ℓ : Loc nD τ sig) → Buf (Elt Ideal) ℓ) (ρ : Dev nD → PrngReg)

/-- That function of the arrays as the region finds them. -/
def arrays (c : Dev nD) : S100000x128.Idx → EReal :=
  G (V m c main_v12) (V m c main_v25) (V m c main_arg7) (V m c main_v26) (V m c main_arg9) (V m c main_v27)

/-- What point `t` writes back is block `t` of `arrays`. -/
theorem flushed_eq (c : Dev nD) (t : Fin cfg0.N) :
    (dats m 0 c).flushed 6 t = ((cfg0.win 6).blk t).view.read (Elt Ideal) (arrays m c) := by
  rw [flushed_pay m c t]
  refine funext fun (j : S10000x128.Idx) => ?_
  obtain ⟨p, q, rfl⟩ : ∃ (p : Fin 10000) (q : Fin 128), j = ix2 p q := ⟨j 0, j 1, eq_ix2 j⟩
  have hP : 10000 * t.val + p.val < 100000 := by
    have ht : t.val < 10 := by have h := t.isLt; have hN : cfg0.N = 10 := N_0; omega
    have hp : p.val < 10000 := p.isLt
    omega
  refine (cut_apply t _ p q).trans ?_
  refine Eq.trans ?_ (read_out (F := Ideal) c (arrays m c) t p q ⟨10000 * t.val + p.val, hP⟩ rfl).symm
  refine (Cert.KernelIdeal.Body.pay_apply (iblk m c 0 t) (iblk m c 1 t) (iblk m c 2 t) (iblk m c 3 t) (iblk m c 4 t)
    (iblk m c 5 t) p q).trans ?_
  unfold arrays
  rw [G_apply]
  exact Cert.Mlp.mlp_ext (iblk m c 0 t) (iblk m c 1 t) (V m c main_v12) (V m c main_v25)
    (iblk m c 2 t) (V m c main_arg7) (fun q => iblk m c 3 t (ix2 (0 : Fin 1) q)) (fun q => V m c main_v26 (ix2 (0 : Fin 1) q))
    (iblk m c 4 t) (V m c main_arg9) (fun q => iblk m c 5 t (ix2 (0 : Fin 1) q)) (fun q => V m c main_v27 (ix2 (0 : Fin 1) q))
    p ⟨10000 * t.val + p.val, hP⟩
    (fun k => rows0 m c t p k _ rfl) (fun k => rows1 m c t p k _ rfl)
    (fun k q => whole2 m c t k q) (fun q => whole3 m c t 0 q)
    (fun k q => whole4 m c t k q) (fun q => whole5 m c t 0 q) q

/-- An index of the output array lies in point `t`'s block iff its row lies in the block's row range. -/
theorem mem_blk (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v28).slice (win0_6.rect t)).set ↔ _
  rw [View.set_slice_whole, Rect.mem_set_unit]
  exact Iff.rfl

/-- Every index of the output array lies in some point's block: row `r` in the block of point `r / 10000`. -/
theorem cover (i : S100000x128.Idx) :
    ∃ t : Fin cfg0.N, (cfg0.win 6).flush t = true ∧ i ∈ ((cfg0.win 6).blk t).view.set := by
  have h0 : (i 0).val < 100000 := idx2_lt0 i
  have h1 : (i 1).val < 128 := idx2_lt1 i
  have hN : cfg0.N = 10 := N_0
  have ht : (i 0).val / 10000 < cfg0.N := by rw [hN]; omega
  obtain ⟨-, -, -, -, -, -, -, -, -, -, -, -, e0, e1⟩ := idx_facts ⟨(i 0).val / 10000, ht⟩
  refine ⟨⟨(i 0).val / 10000, ht⟩, flush0_6 _, ?_⟩
  rw [mem_blk]
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_6.index ⟨(i 0).val / 10000, ht⟩ (1 : Fin 2) * 128 ≤ (i 1).val
      ∧ (i 1).val < win0_6.index ⟨(i 0).val / 10000, ht⟩ (1 : Fin 2) * 128 + 128
    rw [e1]
    omega

/-- After the run the output array is `arrays`. -/
theorem final (c : Dev nD) : (dats m 0 c).arrAt 6 cfg0.N = arrays m c :=
  (dats m 0 c).arrAt_eq_of_cover 6 (arrays m c) (fun t _ => flushed_eq m c t) cover

/-- The kernel program's run, read: the result array ends at `arrays`, the arguments unchanged. -/
theorem run : θ_run defs (onTc (τ := τ) (main (F := Ideal))) ⟨m, fun _ => 0, ρ⟩ fun r => ∀ c : Dev nD,
      r.2.mem ((c : Thread nD τ).loc main_v28) = arrays m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference program's result, read at one entry.

  After the two row-sparse aggregates (its stages `val_main_v12` and `val_main_v25`, never opened here:
  the kernel's program computes them by the very same operations) the reference is a dense function
  `dense` of them and of the parameters: add the aggregates, multiply by `W1`, add `b1` repeated down the
  rows, clip at zero, multiply by `W2`, add `b2` repeated down the rows. On the extended reals a
  `dot_general` entry is the plain sum over the contracted coordinate, so entry `(p, c)` of `dense` is
  `Mlp.mlp` of the aggregates and the parameters at `(p, c)`. The entry lemma is stated for ARBITRARY
  aggregates, so that nothing in it can unfold the aggregation.
-/
import proofs.«181344_j16355235463409_1_alg».proof.Proof.Gen.ReferenceIdeal.Read
import proofs.«181344_j16355235463409_1_alg».proof.Proof.LibPlainDot
import proofs.«181344_j16355235463409_1_alg».proof.Proof.MlpSpec
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

section AnyFloat

variable {F : FTy → Type} [FloatOps F]

/-- The reference after the aggregation, as a function of the two aggregates and the parameters. -/
def dense (a0 a1 : FVec F S100000x128 .f32) (w1 : FVec F S128x128 .f32) (b1 : FVec F S128 .f32)
    (w2 : FVec F S128x128 .f32) (b2 : FVec F S128 .f32) : FVec F S100000x128 .f32 :=
  addf (Host.dotGeneral dot_S100000x128_S128x128_S100000x128_1_0_0_1_n_n none
      (maximumf (addf (Host.dotGeneral dot_S100000x128_S128x128_S100000x128_1_0_0_1_n_n none (addf a0 a1) w1)
          (val_main_v29 (F := F) b1)) (val_main_call0_v0 (F := F))) w2)
    (val_main_v34 (F := F) b2)

/-- The reference's result is `dense` of its two aggregation stages: the same operations, regrouped. -/
theorem result_dense (x0 : (⟨S100000x128, .f32⟩ : BufTy).Contents (Elt F))
    (x1 x2 : (⟨S1600000, .i32⟩ : BufTy).Contents (Elt F)) (x3 : (⟨S1600000, .f32⟩ : BufTy).Contents (Elt F))
    (x4 x5 : (⟨S1600000, .i32⟩ : BufTy).Contents (Elt F)) (x6 : (⟨S1600000, .f32⟩ : BufTy).Contents (Elt F))
    (x7 : (⟨S128x128, .f32⟩ : BufTy).Contents (Elt F)) (x8 : (⟨S128, .f32⟩ : BufTy).Contents (Elt F))
    (x9 : (⟨S128x128, .f32⟩ : BufTy).Contents (Elt F)) (x10 : (⟨S128, .f32⟩ : BufTy).Contents (Elt F)) :
    val_main_v35 (F := F) x0 x1 x2 x3 x4 x5 x6 x7 x8 x9 x10
      = dense (val_main_v12 (F := F) x0 x1 x2 x3) (val_main_v25 (F := F) x0 x4 x5 x6) x7 x8 x9 x10 := rfl

end AnyFloat

/-- The reference's two products contract the left operand's columns against the right operand's rows. -/
theorem plain : Cert.PlainDot.IsPlain dot_S100000x128_S128x128_S100000x128_1_0_0_1_n_n :=
  ⟨rfl, rfl, rfl, rfl, rfl, rfl⟩

/-- A bias, viewed as a row and repeated down the rows, holds `b[q]` at every `(p, q)` (first layer). -/
theorem bias1_apply (b : FVec Ideal S128 .f32) (p : Fin 100000) (q : Fin 128) :
    val_main_v29 (F := Ideal) b (ix2 p q) = b (ix1 q) := by
  rw [val_main_v29_apply, val_main_v28_apply]
  exact congrArg b (funext fun a => match a with | ⟨0, _⟩ => rfl)

/-- The same for the second layer's bias. -/
theorem bias2_apply (b : FVec Ideal S128 .f32) (p : Fin 100000) (c : Fin 128) :
    val_main_v34 (F := Ideal) b (ix2 p c) = b (ix1 c) := by
  rw [val_main_v34_apply, val_main_v33_apply]
  exact congrArg b (funext fun a => match a with | ⟨0, _⟩ => rfl)

/-- The clipping constant repeated over the array is the word of `0.0` at every entry. -/
theorem clip_apply (i : S100000x128.Idx) : val_main_call0_v0 (F := Ideal) i = Cert.Mlp.zero := by
  rw [val_main_call0_v0_apply, val_main_call0_cst_apply]
  rfl

/-- One affine layer of the reference at entry `(p, q)`, for any left operand. -/
theorem affine1_apply (y : FVec Ideal S100000x128 .f32) (w : FVec Ideal S128x128 .f32) (b : FVec Ideal S128 .f32)
    (p : Fin 100000) (q : Fin 128) :
    addf (Host.dotGeneral dot_S100000x128_S128x128_S100000x128_1_0_0_1_n_n none y w) (val_main_v29 (F := Ideal) b) (ix2 p q)
      = (∑ k : Fin 128, y (ix2 p k) * w (ix2 k q)) + b (ix1 q) :=
  congrArg₂ (· + ·) (Cert.PlainDot.dotGeneral_apply plain none y w p q) (bias1_apply b p q)

/-- The same with the second layer's bias stage. -/
theorem affine2_apply (y : FVec Ideal S100000x128 .f32) (w : FVec Ideal S128x128 .f32) (b : FVec Ideal S128 .f32)
    (p : Fin 100000) (c : Fin 128) :
    addf (Host.dotGeneral dot_S100000x128_S128x128_S100000x128_1_0_0_1_n_n none y w) (val_main_v34 (F := Ideal) b) (ix2 p c)
      = (∑ k : Fin 128, y (ix2 p k) * w (ix2 k c)) + b (ix1 c) :=
  congrArg₂ (· + ·) (Cert.PlainDot.dotGeneral_apply plain none y w p c) (bias2_apply b p c)

/-- Entry `(p, c)` of `dense` is the two-layer function of the aggregates and the parameters, whatever the
    aggregates are. -/
theorem dense_apply (a0 a1 : FVec Ideal S100000x128 .f32) (w1 : FVec Ideal S128x128 .f32) (b1 : FVec Ideal S128 .f32)
    (w2 : FVec Ideal S128x128 .f32) (b2 : FVec Ideal S128 .f32) (p : Fin 100000) (c : Fin 128) :
    dense (F := Ideal) a0 a1 w1 b1 w2 b2 (ix2 p c)
      = Cert.Mlp.mlp a0 a1 w1 (fun q => b1 (ix1 q)) w2 (fun q => b2 (ix1 q)) p c := by
  unfold dense
  refine (affine2_apply _ w2 b2 p c).trans ?_
  unfold Cert.Mlp.mlp
  refine congrArg (· + b2 (ix1 c)) (Finset.sum_congr rfl fun q _ => congrArg (· * w2 (ix2 q c)) ?_)
  unfold Cert.Mlp.hidden
  exact congrArg₂ max (affine1_apply (addf a0 a1) w1 b1 p q) (clip_apply (ix2 p q))

end Cert.ReferenceIdeal.RefValue

end
-- ==== Proof.HostPrefix.lean ====
/-
  What the host part of the kernel's program leaves in the arrays the kernel reads.

  Before the kernel is launched the program computes the two row-sparse aggregates by exactly the
  operations the reference uses (negative column numbers wrapped once, the gathered rows scaled by the
  edge values, scattered and added into a zero array by row number), and views each bias as a `1 × 128`
  row. So the two aggregate arrays ARE the reference's aggregation stages of the same arguments, for any
  reading of the floats: nothing is computed here, the two programs' texts are compared.
-/
import proofs.«181344_j16355235463409_1_alg».proof.Proof.Gen.KernelIdeal.Frame
import proofs.«181344_j16355235463409_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The first aggregate the kernel reads is the reference's first aggregation stage of the same arguments. -/
theorem aggregate0 (c : Dev nD) :
    (V m c main_v12 : S100000x128.Idx → F .f32)
      = Cert.ReferenceIdeal.Read.val_main_v12 (F := F) (m ((c : Thread nD τ).loc main_arg0))
          (m ((c : Thread nD τ).loc main_arg1)) (m ((c : Thread nD τ).loc main_arg2)) (m ((c : Thread nD τ).loc main_arg3)) := by
  dsimp only [V, hostOps0]
  after_results_simp <;> rfl

/-- The second aggregate the kernel reads is the reference's second aggregation stage of the same arguments. -/
theorem aggregate1 (c : Dev nD) :
    (V m c main_v25 : S100000x128.Idx → F .f32)
      = Cert.ReferenceIdeal.Read.val_main_v25 (F := F) (m ((c : Thread nD τ).loc main_arg0))
          (m ((c : Thread nD τ).loc main_arg4)) (m ((c : Thread nD τ).loc main_arg5)) (m ((c : Thread nD τ).loc main_arg6)) := by
  dsimp only [V, hostOps0]
  after_results_simp <;> rfl

/-- The first bias row the kernel reads is the first bias viewed as a `1 × 128` array. -/
theorem bias_row1 (c : Dev nD) :
    (V m c main_v26 : S1x128.Idx → F .f32)
      = shapeCast S1x128 (m ((c : Thread nD τ).loc main_arg8)) shapeCasts_S128_S1x128 := by
  dsimp only [V, hostOps0]
  after_results_simp <;> rfl

/-- The second bias row the kernel reads is the second bias viewed as a `1 × 128` array. -/
theorem bias_row2 (c : Dev nD) :
    (V m c main_v27 : S1x128.Idx → F .f32)
      = shapeCast S1x128 (m ((c : Thread nD τ).loc main_arg10)) shapeCasts_S128_S1x128 := by
  dsimp only [V, hostOps0]
  after_results_simp <;> rfl

end Cert.KernelIdeal.HostPrefix

end
-- ==== Proof.lean ====
/-
  The kernel's program and the reference compute the same array, on the extended reals.

  Both programs first build two row-sparse aggregates of the node features by the same host operations
  (gather the rows named by the column numbers, scale them by the edge values, scatter-add them by row
  number). The reference then adds the aggregates and applies `relu(· W1 + b1) W2 + b2` as whole-array
  operations; the kernel's program hands the aggregates to a kernel that does the same on ten blocks of
  10000 rows. An entry of that two-layer function reads one row of each aggregate, and a matrix product
  into a zero accumulator and a `dot_general` are both the plain sum over the contracted coordinate, so
  the two results agree entry by entry: both are `Mlp.mlp` of the same aggregates and parameters
  (KernelValue.lean for the kernel's array, RefValue.lean for the reference's, HostPrefix.lean for the
  aggregates being the same). No algebraic law is needed beyond that reading, so the finiteness of the
  inputs is never used. The idealization rewrote nothing, so the kernel's program read on the extended
  reals is its own idealization; the three programs' frames are the generated ones.
-/
import proofs.«181344_j16355235463409_1_alg».proof.Defs
import proofs.«181344_j16355235463409_1_alg».proof.Proof.Gen.Kernel
import proofs.«181344_j16355235463409_1_alg».proof.Proof.Gen.Kernel.Skeleton
import proofs.«181344_j16355235463409_1_alg».proof.Proof.Gen.Kernel.Launch
import proofs.«181344_j16355235463409_1_alg».proof.Proof.Gen.Kernel.Points
import proofs.«181344_j16355235463409_1_alg».proof.Proof.Gen.Kernel.Frame
import proofs.«181344_j16355235463409_1_alg».proof.Proof.Gen.KernelIdeal
import proofs.«181344_j16355235463409_1_alg».proof.Proof.Gen.KernelIdeal.Skeleton
import proofs.«181344_j16355235463409_1_alg».proof.Proof.Gen.KernelIdeal.Launch
import proofs.«181344_j16355235463409_1_alg».proof.Proof.Gen.KernelIdeal.Points
import proofs.«181344_j16355235463409_1_alg».proof.Proof.Gen.KernelIdeal.Frame
import proofs.«181344_j16355235463409_1_alg».proof.Proof.Gen.ReferenceIdeal
import proofs.«181344_j16355235463409_1_alg».proof.Proof.Gen.Pre_finite_inputs
import proofs.«181344_j16355235463409_1_alg».proof.Proof.Gen.KernelIdeal.Value
import proofs.«181344_j16355235463409_1_alg».proof.Proof.Gen.ReferenceIdeal.Run
import proofs.«181344_j16355235463409_1_alg».proof.Proof.Gen.ReferenceIdeal.Read
import proofs.«181344_j16355235463409_1_alg».proof.Proof.KernelValue
import proofs.«181344_j16355235463409_1_alg».proof.Proof.RefValue
import proofs.«181344_j16355235463409_1_alg».proof.Proof.HostPrefix
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program runs and leaves its arguments unchanged (the generated frame). -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- The array the kernel's program ends with is the reference's dense function of the reference's own
    aggregation stages, read off the kernel program's arguments: entry by entry both are the two-layer
    function of the same aggregates, weights and biases (a bias row's entry `(0, q)` is the bias's entry `q`). -/
theorem arrays_eq (m : (ℓ : Loc Cert.KernelIdeal.nD Cert.KernelIdeal.τ Cert.KernelIdeal.sig) → Buf (Elt Ideal) ℓ)
    (c : Dev Cert.KernelIdeal.nD) :
    Cert.KernelIdeal.Whole.arrays m c
      = Cert.ReferenceIdeal.RefValue.dense (F := Ideal)
          (Cert.ReferenceIdeal.Read.val_main_v12 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)))
          (Cert.ReferenceIdeal.Read.val_main_v25 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) := by
  funext i
  obtain ⟨p, q, rfl⟩ : ∃ (p : Fin 100000) (q : Fin 128), i = ix2 p q := ⟨i 0, i 1, eq_ix2 i⟩
  rw [Cert.ReferenceIdeal.RefValue.dense_apply]
  unfold Cert.KernelIdeal.Whole.arrays
  rw [Cert.KernelIdeal.Whole.G_apply, Cert.KernelIdeal.HostPrefix.aggregate0 m c, Cert.KernelIdeal.HostPrefix.aggregate1 m c,
    Cert.KernelIdeal.HostPrefix.bias_row1 m c, Cert.KernelIdeal.HostPrefix.bias_row2 m c,
    Cert.KernelIdeal.Gen.V_main_arg7 m c, Cert.KernelIdeal.Gen.V_main_arg9 m c]
  simp only [shapeCast_a_1a_apply]

/-- From memories agreeing on the arguments both programs run, and the reference's result array is the
    kernel program's. -/
theorem algebraic : Cert.algebraic_KernelIdeal_ReferenceIdeal := by
  intro m ρ m' ρ' _ hagree
  refine ⟨fun c => Cert.KernelIdeal.Whole.arrays m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v35_eq, Cert.ReferenceIdeal.RefValue.result_dense,
    e0, e1, e2, e3, e4, e5, e6, e7, e8, e9, e10]
  exact (arrays_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
